-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S512 .f32) (main_arg5 : FVec F S512x10 .f32) (main_arg6 : FVec F S10 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x10 .f32 := Host.absf main_arg5
  let main_cst_8 : FVec F S_ .f32 := constant S_ .f32 0x7F800000#32
  let main_v25 : FVec F S512x10 .f32 := broadcastInDim S512x10 ![] bcast_S_S512x10 main_cst_8
  let main_v26 : IVec S512x10 1 := cmpf .olt main_v24 main_v25
  let main_c_9 : IVec S_ 1 := constantI S_ 1 1#1
  let main_v27 : IVec S_ 1 := (fun x v => Host.reduce IntOp.andi x v reducesTo_S512x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S32768x512 .f32) (main_arg1 : FVec F S512x1024 .f32) (main_arg2 : FVec F S1024 .f32) (main_arg3 : FVec F S1024x512 .f32) (main_arg4 : FVec F S512 .f32) (main_arg5 : FVec F S512x10 .f32) (main_arg6 : FVec F S10 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S32768x512 : Shape := ⟨2, ![32768, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S32768x10 : Shape := ⟨2, ![32768, 10]⟩
abbrev S1024x10 : Shape := ⟨2, ![1024, 10]⟩
abbrev S1024x1024 : Shape := ⟨2, ![1024, 1024]⟩
abbrev S1x1024 : Shape := ⟨2, ![1, 1024]⟩
abbrev S1x512 : Shape := ⟨2, ![1, 512]⟩
abbrev S1x10 : Shape := ⟨2, ![1, 10]⟩

abbrev nBuf : Space → Nat
  | .hbm => 8
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x10, .f32⟩
  | .hbm, ⟨6, _⟩ => ⟨S10, .f32⟩
  | .hbm, ⟨7, _⟩ => ⟨S32768x10, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S1024, .f32⟩
  | .local _ .vmem, ⟨4, _⟩ => ⟨S1024x512, .f32⟩
  | .local _ .vmem, ⟨5, _⟩ => ⟨S512, .f32⟩
  | .local _ .vmem, ⟨6, _⟩ => ⟨S512x10, .f32⟩
  | .local _ .vmem, ⟨7, _⟩ => ⟨S10, .f32⟩
  | .local _ .vmem, ⟨8, _⟩ => ⟨S1024x10, .f32⟩
  | .local _ .vmem, ⟨9, _⟩ => ⟨S1024x10, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  bitsLt_bf16_f32 : FTy.bits .bf16 < FTy.bits .f32
  shapeCasts_S1024_S1x1024 : S1024.ShapeCasts S1x1024
  broadcasts_S1x1024_S1024x1024 : S1x1024.Broadcasts S1024x1024
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x10_S512x10_0_0 : ∀ a, (![0, 0] : Fin 2 → Nat) a + S512x10.size a ≤ S512x10.size a
  h_S512x10 : 0 < S512x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S512x10.size a
  hwx0_5 : ∀ i : grid0.Coords, EltTy.bits .f32 = 32 ∨ (Rect.block (s := S512x10) S512x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x10.size a ≤ S32768x10.size a
  hwx0_7 : ∀ i : grid0.Coords, EltTy.bits .f32 = 32 ∨ (Rect.block (s := S32768x10) S1024x10.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S32768x1024 : Shape := ⟨2, ![32768, 1024]⟩
abbrev S1x1024 : Shape := ⟨2, ![1, 1024]⟩
abbrev S_ : Shape := ⟨0, ![]⟩
abbrev S1x512 : Shape := ⟨2, ![1, 512]⟩
abbrev S32768x10 : Shape := ⟨2, ![32768, 10]⟩
abbrev S1x10 : Shape := ⟨2, ![1, 10]⟩

abbrev nBuf : Space → Nat
  | .hbm => 37
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x10, .f32⟩
  | .hbm, ⟨6, _⟩ => ⟨S10, .f32⟩
  | .hbm, ⟨7, _⟩ => ⟨S32768x1024, .f32⟩
  | .hbm, ⟨8, _⟩ => ⟨S1x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .i1⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S32768x10, .f32⟩
  | .hbm, ⟨34, _⟩ => ⟨S1x10, .f32⟩
  | .hbm, ⟨35, _⟩ => ⟨S32768x10, .f32⟩
  | .hbm, ⟨36, _⟩ => ⟨S32768x10, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  dot_S32768x512_S512x1024_S32768x1024_1_0_0_1_n_n_wf : DotDims.WF S32768x512 S512x1024 S32768x1024 [1] [0] [0] [1] [] []
  dot_S32768x1024_S1024x512_S32768x512_1_0_0_1_n_n_wf : DotDims.WF S32768x1024 S1024x512 S32768x512 [1] [0] [0] [1] [] []
  dot_S32768x512_S512x10_S32768x10_1_0_0_1_n_n_wf : DotDims.WF S32768x512 S512x10 S32768x10 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf

class Facts : Prop extends Facts₀ where

variable [Facts]
-- ==== Proof.BlockProducts.lean ====
/-
  The three block products of the kernel's body read at an index. Each is a plain product of a
  `[rows, K]` block with a `[K, columns]` block, accumulated from zero: at the extended reals its entry
  `(p, j)` is the sum over the contracted position `k` of `left (p, k) * right (k, j)`, with no rounding
  and no order of accumulation left in it.
-/
import proofs.«167243_j88441966559494_1_alg».proof.Proof.Gen.KernelIdeal
import Idealize.ShloMosaic.Lib.ValueIdx
import Idealize.ShloMosaic.PureOps.Ideal.Laws

noncomputable section

namespace Cert.KernelIdeal.BlockProducts

open Cert.KernelIdeal Idealize.ShloMosaic Idealize.ShloMosaic.ValueIdx

/-- The left operand's row coordinate at output index `i` is `i`'s row. -/
theorem lhs1_row (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- The right operand's column coordinate at output index `i` is `i`'s column. -/
theorem rhs1_col (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product `[1024, 512] × [512, 1024]` into a zero accumulator, read at `(p, j)`: the sum over the
    512 contracted positions `k` of the left operand at `(p, k)` times the right operand at `(k, j)`. -/
theorem product1_apply {φ₁ φ₂ : FTy} (A : FVec Ideal S1024x512 φ₁) (B : FVec Ideal S512x1024 φ₂) (p : Fin 1024) (j : Fin 1024) :
    matmul dot_S1024x512_S512x1024_S1024x1024_1_0_0_1_n_n none A B (constant (F := Ideal) S1024x1024 .f32 0x00000000#32) (ix2 p j)
      = ∑ k : Fin 512, A (ix2 p k) * B (ix2 k j) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p j) ((contrEquiv1 dot_S1024x512_S512x1024_S1024x1024_1_0_0_1_n_n 512 rfl rfl).symm k) = ix2 p k := funext fun a => Fin.ext (by
    match a with
    | ⟨0, _⟩ => exact lhs1_row _ _
    | ⟨1, _⟩ => exact (dot_S1024x512_S512x1024_S1024x1024_1_0_0_1_n_n.lhsIdx_val_of_single rfl (ix2 p j) _).trans hk)
  have er : dot_S1024x512_S512x1024_S1024x1024_1_0_0_1_n_n.rhsIdx (ix2 p j) ((contrEquiv1 dot_S1024x512_S512x1024_S1024x1024_1_0_0_1_n_n 512 rfl rfl).symm k) = ix2 k j := funext fun a => Fin.ext (by
    match a with
    | ⟨0, _⟩ => exact (dot_S1024x512_S512x1024_S1024x1024_1_0_0_1_n_n.rhsIdx_val_of_single rfl (ix2 p j) _).trans hk
    | ⟨1, _⟩ => exact rhs1_col _ _)
  rw [el, er]

/-- The left operand's row coordinate at output index `i` is `i`'s row. -/
theorem lhs2_row (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- The right operand's column coordinate at output index `i` is `i`'s column. -/
theorem rhs2_col (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The block product `[1024, 1024] × [1024, 512]` into a zero accumulator, read at `(p, j)`: the sum over the
    1024 contracted positions `k` of the left operand at `(p, k)` times the right operand at `(k, j)`. -/
theorem product2_apply {φ₁ φ₂ : FTy} (A : FVec Ideal S1024x1024 φ₁) (B : FVec Ideal S1024x512 φ₂) (p : Fin 1024) (j : Fin 512) :
    matmul dot_S1024x1024_S1024x512_S1024x512_1_0_0_1_n_n none A B (constant (F := Ideal) S1024x512 .f32 0x00000000#32) (ix2 p j)
      = ∑ k : Fin 1024, A (ix2 p k) * B (ix2 k j) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p j) ((contrEquiv1 dot_S1024x1024_S1024x512_S1024x512_1_0_0_1_n_n 1024 rfl rfl).symm k) = ix2 p k := funext fun a => Fin.ext (by
    match a with
    | ⟨0, _⟩ => exact lhs2_row _ _
    | ⟨1, _⟩ => exact (dot_S1024x1024_S1024x512_S1024x512_1_0_0_1_n_n.lhsIdx_val_of_single rfl (ix2 p j) _).trans hk)
  have er : dot_S1024x1024_S1024x512_S1024x512_1_0_0_1_n_n.rhsIdx (ix2 p j) ((contrEquiv1 dot_S1024x1024_S1024x512_S1024x512_1_0_0_1_n_n 1024 rfl rfl).symm k) = ix2 k j := funext fun a => Fin.ext (by
    match a with
    | ⟨0, _⟩ => exact (dot_S1024x1024_S1024x512_S1024x512_1_0_0_1_n_n.rhsIdx_val_of_single rfl (ix2 p j) _).trans hk
    | ⟨1, _⟩ => exact rhs2_col _ _)
  rw [el, er]

/-- The left operand's row coordinate at output index `i` is `i`'s row. -/
theorem lhs3_row (i : S1024x10.Idx) (q : dot_S1024x512_S512x10_S1024x10_1_0_0_1_n_n.contr.Idx) : (dot_S1024x512_S512x10_S1024x10_1_0_0_1_n_n.lhsIdx i q 0).val = (i 0).val := by
  unfold DotDims.lhsIdx
  rw [dif_neg (show ¬(0 : Fin S1024x512.rank) ∈ dot_S1024x512_S512x10_S1024x10_1_0_0_1_n_n.lhsBatch by decide), dif_pos (show (0 : Fin S1024x512.rank) ∈ dot_S1024x512_S512x10_S1024x10_1_0_0_1_n_n.lhsNonContracting by decide)]
  rfl
/-- The right operand's column coordinate at output index `i` is `i`'s column. -/
theorem rhs3_col (i : S1024x10.Idx) (q : dot_S1024x512_S512x10_S1024x10_1_0_0_1_n_n.contr.Idx) : (dot_S1024x512_S512x10_S1024x10_1_0_0_1_n_n.rhsIdx i q 1).val = (i 1).val := by
  unfold DotDims.rhsIdx
  rw [dif_neg (show ¬(1 : Fin S512x10.rank) ∈ dot_S1024x512_S512x10_S1024x10_1_0_0_1_n_n.rhsBatch by decide), dif_pos (show (1 : Fin S512x10.rank) ∈ dot_S1024x512_S512x10_S1024x10_1_0_0_1_n_n.rhsNonContracting by decide)]
  rfl

/-- The block product `[1024, 512] × [512, 10]` into a zero accumulator, read at `(p, j)`: the sum over the
    512 contracted positions `k` of the left operand at `(p, k)` times the right operand at `(k, j)`. -/
theorem product3_apply {φ₁ φ₂ : FTy} (A : FVec Ideal S1024x512 φ₁) (B : FVec Ideal S512x10 φ₂) (p : Fin 1024) (j : Fin 10) :
    matmul dot_S1024x512_S512x10_S1024x10_1_0_0_1_n_n none A B (constant (F := Ideal) S1024x10 .f32 0x00000000#32) (ix2 p j)
      = ∑ k : Fin 512, A (ix2 p k) * B (ix2 k j) := by
  simp only [matmul]
  rw [Ideal.matmul_constant_zero_apply, ← Equiv.sum_comp (contrEquiv1 dot_S1024x512_S512x10_S1024x10_1_0_0_1_n_n 512 rfl rfl).symm]
  refine Finset.sum_congr rfl fun k _ => ?_
  have hk := contrEquiv1_symm_val dot_S1024x512_S512x10_S1024x10_1_0_0_1_n_n 512 rfl rfl k
  have el : dot_S1024x512_S512x10_S1024x10_1_0_0_1_n_n.lhsIdx (ix2 p j) ((contrEquiv1 dot_S1024x512_S512x10_S1024x10_1_0_0_1_n_n 512 rfl rfl).symm k) = ix2 p k := funext fun a => Fin.ext (by
    match a with
    | ⟨0, _⟩ => exact lhs3_row _ _
    | ⟨1, _⟩ => exact (dot_S1024x512_S512x10_S1024x10_1_0_0_1_n_n.lhsIdx_val_of_single rfl (ix2 p j) _).trans hk)
  have er : dot_S1024x512_S512x10_S1024x10_1_0_0_1_n_n.rhsIdx (ix2 p j) ((contrEquiv1 dot_S1024x512_S512x10_S1024x10_1_0_0_1_n_n 512 rfl rfl).symm k) = ix2 k j := funext fun a => Fin.ext (by
    match a with
    | ⟨0, _⟩ => exact (dot_S1024x512_S512x10_S1024x10_1_0_0_1_n_n.rhsIdx_val_of_single rfl (ix2 p j) _).trans hk
    | ⟨1, _⟩ => exact rhs3_col _ _)
  rw [el, er]

end Cert.KernelIdeal.BlockProducts

end
-- ==== Proof.RowMlp.lean ====
/-
  The mathematics both programs compute, one row at a time, over the extended reals.

  A row `xr` of 512 numbers goes through three affine layers: 512 → 1024 with a blended activation,
  1024 → 512 with a rectifier, 512 → 10 with no activation. Every layer is "the row times the weight
  matrix plus the bias": entry `j` is the sum over `k` of `row k * W (k, j)`, plus `b j`. The blended
  activation of a pre-activation `z` is `0.9·z + 0.1·tanh z` where `z > 0` and `0.5·tanh z` elsewhere,
  with the three factors kept as the binary words both programs print (never evaluated: the same word
  denotes the same extended real on both sides). The rectifier is the maximum with the zero word.

  Nothing here mentions a program: the functions are stated over plain index types and extended reals.
-/
import Idealize.ShloMosaic.PureOps.Ideal
import Idealize.ShloMosaic.Lib.ValueIdx

noncomputable section

namespace Cert.RowMlp

open Idealize.ShloMosaic Idealize.ShloMosaic.ValueIdx

/-- One affine layer applied to a row: entry `j` is `∑ k, row k * W (k, j) + b j`. -/
def affine {K N : Nat} (row : Fin K → EReal) (W : (⟨2, ![K, N]⟩ : Shape).Idx → EReal)
    (b : (⟨1, ![N]⟩ : Shape).Idx → EReal) (j : Fin N) : EReal :=
  (∑ k : Fin K, row k * W (ix2 k j)) + b (ix1 j)

/-- The blended activation: `0.9·z + 0.1·tanh z` where `z > 0`, `0.5·tanh z` elsewhere (the factors as their words). -/
def blend (z : EReal) : EReal :=
  Scalar.select (Ideal.cmp .ogt z (Ideal.ofBits .f32 0x00000000#32))
    (z * Ideal.ofBits .f32 0x3F666666#32 + Ideal.tanh z * Ideal.ofBits .f32 0x3DCCCCCD#32)
    (Ideal.tanh z * Ideal.ofBits .f32 0x3F000000#32)

/-- The rectifier: the maximum with the zero word. -/
def relu (z : EReal) : EReal := max z (Ideal.ofBits .f32 0x00000000#32)

/-- The first hidden row: the blended activation of the first affine layer. -/
def hidden1 (xr : Fin 512 → EReal) (W1 : (⟨2, ![512, 1024]⟩ : Shape).Idx → EReal) (b1 : (⟨1, ![1024]⟩ : Shape).Idx → EReal)
    (j : Fin 1024) : EReal :=
  blend (affine xr W1 b1 j)

/-- The second hidden row: the rectified second affine layer of the first hidden row. -/
def hidden2 (xr : Fin 512 → EReal) (W1 : (⟨2, ![512, 1024]⟩ : Shape).Idx → EReal) (b1 : (⟨1, ![1024]⟩ : Shape).Idx → EReal)
    (W2 : (⟨2, ![1024, 512]⟩ : Shape).Idx → EReal) (b2 : (⟨1, ![512]⟩ : Shape).Idx → EReal) (j : Fin 512) : EReal :=
  relu (affine (hidden1 xr W1 b1) W2 b2 j)

/-- The output row: the third affine layer of the second hidden row. -/
def out (xr : Fin 512 → EReal) (W1 : (⟨2, ![512, 1024]⟩ : Shape).Idx → EReal) (b1 : (⟨1, ![1024]⟩ : Shape).Idx → EReal)
    (W2 : (⟨2, ![1024, 512]⟩ : Shape).Idx → EReal) (b2 : (⟨1, ![512]⟩ : Shape).Idx → EReal)
    (W3 : (⟨2, ![512, 10]⟩ : Shape).Idx → EReal) (b3 : (⟨1, ![10]⟩ : Shape).Idx → EReal) (c : Fin 10) : EReal :=
  affine (hidden2 xr W1 b1 W2 b2) W3 b3 c

/-- The whole result array: row `r` of the result is the output row of row `r` of `x`. -/
def result (x : (⟨2, ![32768, 512]⟩ : Shape).Idx → EReal) (W1 : (⟨2, ![512, 1024]⟩ : Shape).Idx → EReal)
    (b1 : (⟨1, ![1024]⟩ : Shape).Idx → EReal) (W2 : (⟨2, ![1024, 512]⟩ : Shape).Idx → EReal)
    (b2 : (⟨1, ![512]⟩ : Shape).Idx → EReal) (W3 : (⟨2, ![512, 10]⟩ : Shape).Idx → EReal)
    (b3 : (⟨1, ![10]⟩ : Shape).Idx → EReal) : (⟨2, ![32768, 10]⟩ : Shape).Idx → EReal :=
  fun i => out (fun k => x (ix2 (i 0) k)) W1 b1 W2 b2 W3 b3 (i 1)

end Cert.RowMlp

end
-- ==== Proof.BlockRows.lean ====
/-
  The kernel's body at one grid point, read one row at a time. The body loads a `[1024, 512]` block of
  `x` and the whole weights and biases, and computes three layers — a block product plus a bias row,
  with the blended activation after the first and the rectifier after the second — as whole-block
  vector operations. Entry `(p, c)` of what it stores depends on row `p` of the block alone: it is the
  row function `RowMlp.out` of that row.
-/
import proofs.«167243_j88441966559494_1_alg».proof.Proof.Gen.KernelIdeal.Skeleton
import proofs.«167243_j88441966559494_1_alg».proof.Proof.BlockProducts
import proofs.«167243_j88441966559494_1_alg».proof.Proof.RowMlp
import Idealize.ShloMosaic.Lib.ValueLayout
import Idealize.ShloMosaic.Lib.Pipeline.Value

noncomputable section

namespace Cert.KernelIdeal.BlockRows

open Cert.KernelIdeal Cert.KernelIdeal.Gen Cert.KernelIdeal.BlockProducts
open Idealize.ShloMosaic Idealize.ShloMosaic.ValueIdx

/-- The first layer of a block: the block product of the operands (each taken to the narrower float format, which at the
    extended reals changes nothing) into a zero accumulator, plus the bias laid out as one row and repeated down the rows. -/
def layer1 (A : FVec Ideal S1024x512 .f32) (W : FVec Ideal S512x1024 .f32) (b : FVec Ideal S1024 .f32) : FVec Ideal S1024x1024 .f32 :=
  addf (matmul dot_S1024x512_S512x1024_S1024x1024_1_0_0_1_n_n none (truncf .bf16 A bitsLt_bf16_f32) (truncf .bf16 W bitsLt_bf16_f32) (constant (F := Ideal) S1024x1024 .f32 0x00000000#32))
    (broadcastTo S1024x1024 (shapeCast S1x1024 b shapeCasts_S1024_S1x1024) broadcasts_S1x1024_S1024x1024)

/-- Entry `(p, j)` of that layer is the affine layer of row `p` of the block. -/
theorem layer1_apply (A : FVec Ideal S1024x512 .f32) (W : FVec Ideal S512x1024 .f32) (b : FVec Ideal S1024 .f32) (p : Fin 1024) (j : Fin 1024) :
    layer1 A W b (ix2 p j) = RowMlp.affine (fun k => A (ix2 p k)) W b j := by
  unfold layer1
  rw [addf_apply, product1_apply, broadcastTo_1b_ab_apply, shapeCast_a_1a_apply]
  rfl

/-- The second layer of a block: the block product of the operands (each taken to the narrower float format, which at the
    extended reals changes nothing) into a zero accumulator, plus the bias laid out as one row and repeated down the rows. -/
def layer2 (A : FVec Ideal S1024x1024 .f32) (W : FVec Ideal S1024x512 .f32) (b : FVec Ideal S512 .f32) : FVec Ideal S1024x512 .f32 :=
  addf (matmul dot_S1024x1024_S1024x512_S1024x512_1_0_0_1_n_n none (truncf .bf16 A bitsLt_bf16_f32) (truncf .bf16 W bitsLt_bf16_f32) (constant (F := Ideal) S1024x512 .f32 0x00000000#32))
    (broadcastTo S1024x512 (shapeCast S1x512 b shapeCasts_S512_S1x512) broadcasts_S1x512_S1024x512)

/-- Entry `(p, j)` of that layer is the affine layer of row `p` of the block. -/
theorem layer2_apply (A : FVec Ideal S1024x1024 .f32) (W : FVec Ideal S1024x512 .f32) (b : FVec Ideal S512 .f32) (p : Fin 1024) (j : Fin 512) :
    layer2 A W b (ix2 p j) = RowMlp.affine (fun k => A (ix2 p k)) W b j := by
  unfold layer2
  rw [addf_apply, product2_apply, broadcastTo_1b_ab_apply, shapeCast_a_1a_apply]
  rfl

/-- The third layer of a block: the block product of the operands (each taken to the narrower float format, which at the
    extended reals changes nothing) into a zero accumulator, plus the bias laid out as one row and repeated down the rows. -/
def layer3 (A : FVec Ideal S1024x512 .f32) (W : FVec Ideal S512x10 .f32) (b : FVec Ideal S10 .f32) : FVec Ideal S1024x10 .f32 :=
  addf (matmul dot_S1024x512_S512x10_S1024x10_1_0_0_1_n_n none (truncf .bf16 A bitsLt_bf16_f32) (truncf .bf16 W bitsLt_bf16_f32) (constant (F := Ideal) S1024x10 .f32 0x00000000#32))
    (broadcastTo S1024x10 (shapeCast S1x10 b shapeCasts_S10_S1x10) broadcasts_S1x10_S1024x10)

/-- Entry `(p, j)` of that layer is the affine layer of row `p` of the block. -/
theorem layer3_apply (A : FVec Ideal S1024x512 .f32) (W : FVec Ideal S512x10 .f32) (b : FVec Ideal S10 .f32) (p : Fin 1024) (j : Fin 10) :
    layer3 A W b (ix2 p j) = RowMlp.affine (fun k => A (ix2 p k)) W b j := by
  unfold layer3
  rw [addf_apply, product3_apply, broadcastTo_1b_ab_apply, shapeCast_a_1a_apply]
  rfl

/-- The blended activation of a whole block, as the body spells it: a select on `v > 0` between
    `v * 0.9 + tanh v * 0.1` and `tanh v * 0.5`, every constant a broadcast scalar. -/
def activate (v : FVec Ideal S1024x1024 .f32) : FVec Ideal S1024x1024 .f32 :=
  select (cmpf .ogt v (broadcast S1024x1024 (Scalar.ofBits (F := Ideal) .f32 0x00000000#32)))
    (addf (mulf v (broadcast S1024x1024 (Scalar.ofBits (F := Ideal) .f32 0x3F666666#32)))
      (mulf (tanh v) (broadcast S1024x1024 (Scalar.ofBits (F := Ideal) .f32 0x3DCCCCCD#32))))
    (mulf (tanh v) (broadcast S1024x1024 (Scalar.ofBits (F := Ideal) .f32 0x3F000000#32)))

/-- It acts entry by entry, as the scalar blend. -/
theorem activate_apply (v : FVec Ideal S1024x1024 .f32) (i : S1024x1024.Idx) : activate v i = RowMlp.blend (v i) := rfl

/-- The rectifier of a whole block: the maximum with a broadcast zero. -/
def rectify (v : FVec Ideal S1024x512 .f32) : FVec Ideal S1024x512 .f32 :=
  maximumf v (broadcast S1024x512 (Scalar.ofBits (F := Ideal) .f32 0x00000000#32))

/-- It acts entry by entry, as the scalar rectifier. -/
theorem rectify_apply (v : FVec Ideal S1024x512 .f32) (i : S1024x512.Idx) : rectify v i = RowMlp.relu (v i) := rfl

variable (x0 : Vec Ideal S1024x512 .f32) (x1 : Vec Ideal S512x1024 .f32) (x2 : Vec Ideal S1024 .f32)
  (x3 : Vec Ideal S1024x512 .f32) (x4 : Vec Ideal S512 .f32) (x5 : Vec Ideal S512x10 .f32) (x6 : Vec Ideal S10 .f32)

/-- The stored value is the three layers composed. -/
theorem stored_eq : k0_pay1 (F := Ideal) x0 x1 x2 x3 x4 x5 x6
    = layer3 (rectify (layer2 (activate (layer1 x0 x1 x2)) x3 x4)) x5 x6 := rfl

/-- Row `p` of the first hidden block is the first hidden row of row `p` of the `x` block. -/
theorem hidden1_row (p : Fin 1024) :
    (fun k : Fin 1024 => activate (layer1 x0 x1 x2) (ix2 p k)) = RowMlp.hidden1 (fun k => x0 (ix2 p k)) x1 x2 := by
  funext k
  rw [activate_apply, layer1_apply]
  rfl

/-- Row `p` of the second hidden block is the second hidden row of row `p` of the `x` block. -/
theorem hidden2_row (p : Fin 1024) :
    (fun k : Fin 512 => rectify (layer2 (activate (layer1 x0 x1 x2)) x3 x4) (ix2 p k))
      = RowMlp.hidden2 (fun k => x0 (ix2 p k)) x1 x2 x3 x4 := by
  funext k
  rw [rectify_apply, layer2_apply, hidden1_row]
  rfl

/-- Entry `(p, c)` of the stored block is the output row of row `p` of the `x` block, at `c`. -/
theorem stored_apply (p : Fin 1024) (c : Fin 10) :
    k0_pay1 (F := Ideal) x0 x1 x2 x3 x4 x5 x6 (ix2 p c) = RowMlp.out (fun k => x0 (ix2 p k)) x1 x2 x3 x4 x5 x6 c := by
  rw [stored_eq, layer3_apply, hidden2_row]
  rfl

end Cert.KernelIdeal.BlockRows

end
-- ==== Proof.WholeArray.lean ====
/-
  From blocks to the whole result array. The grid has 32 points; at point `t` the `x` window and the output
  window sit at row block `t` (rows `1024·t … 1024·t + 1023`), and the six weight and bias windows are their whole
  arrays at block index 0. So the blocks the body loads are rows `1024·t …` of `x` and the whole weights, what it
  stores is rows `1024·t …` of `RowMlp.result` of the argument arrays, and since the 32 row blocks tile the
  `[32768, 10]` result, the array ends holding `RowMlp.result` everywhere.
-/
import proofs.«167243_j88441966559494_1_alg».proof.Proof.Gen.KernelIdeal.Value
import proofs.«167243_j88441966559494_1_alg».proof.Proof.BlockRows

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- What the result array ends holding: the row function of the argument arrays as the region finds them. -/
abbrev target (c : Dev nD) : S32768x10.Idx → EReal :=
  RowMlp.result (V m c main_arg0) (V m c main_arg1) (V m c main_arg2) (V m c main_arg3) (V m c main_arg4)
    (V m c main_arg5) (V m c main_arg6)

/-- The printed index maps over the 32 grid points: the `x` window and the output window are at row block `t`,
    column block 0; every weight and bias window is at block 0 on each axis. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- The first weight window's block at any point is the whole first weight matrix. -/
theorem whole1 (c : Dev nD) (t : Fin cfg0.N) : (iblk m c 1 t : S512x1024.Idx → EReal) = V m c main_arg1 := by
  obtain ⟨-, -, -, -, e0, e1, -⟩ := index_facts t
  funext z
  show (V m c main_arg1 : S512x1024.Idx → EReal) (((cfg0.win 1).blk t).view.emb z) = V m c main_arg1 z
  refine congrArg (V m c main_arg1 : S512x1024.Idx → EReal) (funext fun a => Fin.ext ?_)
  match a with
  | ⟨0, _⟩ => show win0_1.index t (0 : Fin 2) * 512 + 1 * (z 0).val = (z 0).val; omega
  | ⟨1, _⟩ => show win0_1.index t (1 : Fin 2) * 1024 + 1 * (z 1).val = (z 1).val; omega

/-- The first bias window's block at any point is the whole first bias. -/
theorem whole2 (c : Dev nD) (t : Fin cfg0.N) : (iblk m c 2 t : S1024.Idx → EReal) = V m c main_arg2 := by
  obtain ⟨-, -, -, -, -, -, e0, -⟩ := index_facts t
  funext z
  show (V m c main_arg2 : S1024.Idx → EReal) (((cfg0.win 2).blk t).view.emb z) = V m c main_arg2 z
  refine congrArg (V m c main_arg2 : S1024.Idx → EReal) (funext fun a => Fin.ext ?_)
  match a with
  | ⟨0, _⟩ => show win0_2.index t (0 : Fin 1) * 1024 + 1 * (z 0).val = (z 0).val; omega

/-- The second weight window's block at any point is the whole second weight matrix. -/
theorem whole3 (c : Dev nD) (t : Fin cfg0.N) : (iblk m c 3 t : S1024x512.Idx → EReal) = V m c main_arg3 := by
  obtain ⟨-, -, -, -, -, -, -, e0, e1, -⟩ := index_facts t
  funext z
  show (V m c main_arg3 : S1024x512.Idx → EReal) (((cfg0.win 3).blk t).view.emb z) = V m c main_arg3 z
  refine congrArg (V m c main_arg3 : S1024x512.Idx → EReal) (funext fun a => Fin.ext ?_)
  match a with
  | ⟨0, _⟩ => show win0_3.index t (0 : Fin 2) * 1024 + 1 * (z 0).val = (z 0).val; omega
  | ⟨1, _⟩ => show win0_3.index t (1 : Fin 2) * 512 + 1 * (z 1).val = (z 1).val; omega

/-- The second bias window's block at any point is the whole second bias. -/
theorem whole4 (c : Dev nD) (t : Fin cfg0.N) : (iblk m c 4 t : S512.Idx → EReal) = V m c main_arg4 := by
  obtain ⟨-, -, -, -, -, -, -, -, -, e0, -⟩ := index_facts t
  funext z
  show (V m c main_arg4 : S512.Idx → EReal) (((cfg0.win 4).blk t).view.emb z) = V m c main_arg4 z
  refine congrArg (V m c main_arg4 : S512.Idx → EReal) (funext fun a => Fin.ext ?_)
  match a with
  | ⟨0, _⟩ => show win0_4.index t (0 : Fin 1) * 512 + 1 * (z 0).val = (z 0).val; omega

/-- The third weight window's block at any point is the whole third weight matrix. -/
theorem whole5 (c : Dev nD) (t : Fin cfg0.N) : (iblk m c 5 t : S512x10.Idx → EReal) = V m c main_arg5 := by
  obtain ⟨-, -, -, -, -, -, -, -, -, -, e0, e1, -⟩ := index_facts t
  funext z
  show (V m c main_arg5 : S512x10.Idx → EReal) (((cfg0.win 5).blk t).view.emb z) = V m c main_arg5 z
  refine congrArg (V m c main_arg5 : S512x10.Idx → EReal) (funext fun a => Fin.ext ?_)
  match a with
  | ⟨0, _⟩ => show win0_5.index t (0 : Fin 2) * 512 + 1 * (z 0).val = (z 0).val; omega
  | ⟨1, _⟩ => show win0_5.index t (1 : Fin 2) * 10 + 1 * (z 1).val = (z 1).val; omega

/-- The third bias window's block at any point is the whole third bias. -/
theorem whole6 (c : Dev nD) (t : Fin cfg0.N) : (iblk m c 6 t : S10.Idx → EReal) = V m c main_arg6 := by
  obtain ⟨-, -, -, -, -, -, -, -, -, -, -, -, e0⟩ := index_facts t
  funext z
  show (V m c main_arg6 : S10.Idx → EReal) (((cfg0.win 6).blk t).view.emb z) = V m c main_arg6 z
  refine congrArg (V m c main_arg6 : S10.Idx → EReal) (funext fun a => Fin.ext ?_)
  match a with
  | ⟨0, _⟩ => show win0_6.index t (0 : Fin 1) * 10 + 1 * (z 0).val = (z 0).val; omega

/-- One entry of a stored block against one entry of the row function of whole arrays: when the weights and biases
    the body loaded are the whole arrays, the column is the same, and the loaded `x` block's row is the array's row,
    the two agree. (Stated over plain vectors and indices; the window's blocks are put in afterwards.) -/
theorem stored_eq_result (x0 : Vec Ideal S1024x512 .f32) (x1 : Vec Ideal S512x1024 .f32) (x2 : Vec Ideal S1024 .f32)
    (x3 : Vec Ideal S1024x512 .f32) (x4 : Vec Ideal S512 .f32) (x5 : Vec Ideal S512x10 .f32) (x6 : Vec Ideal S10 .f32)
    (X0 : S32768x512.Idx → EReal) (X1 : S512x1024.Idx → EReal) (X2 : S1024.Idx → EReal) (X3 : S1024x512.Idx → EReal)
    (X4 : S512.Idx → EReal) (X5 : S512x10.Idx → EReal) (X6 : S10.Idx → EReal)
    (y : S1024x10.Idx) (i : S32768x10.Idx)
    (h1 : x1 = X1) (h2 : x2 = X2) (h3 : x3 = X3) (h4 : x4 = X4) (h5 : x5 = X5) (h6 : x6 = X6)
    (hcol : (i 1).val = (y 1).val)
    (hrow : ∀ (z : S1024x512.Idx) (u : S32768x512.Idx), (z 0).val = (y 0).val → (u 0).val = (i 0).val →
      (u 1).val = (z 1).val → x0 z = X0 u) :
    k0_pay1 (F := Ideal) x0 x1 x2 x3 x4 x5 x6 y = RowMlp.result X0 X1 X2 X3 X4 X5 X6 i := by
  subst h1 h2 h3 h4 h5 h6
  obtain ⟨p, q, rfl⟩ : ∃ (p : Fin 1024) (q : Fin 10), y = ix2 p q := ⟨y 0, y 1, eq_ix2 y⟩
  obtain ⟨r, q', rfl⟩ : ∃ (r : Fin 32768) (q' : Fin 10), i = ix2 r q' := ⟨i 0, i 1, eq_ix2 i⟩
  obtain rfl : q' = q := Fin.ext hcol
  rw [BlockRows.stored_apply]
  have hx : (fun k : Fin 512 => x0 (ix2 p k)) = fun k => X0 (ix2 r k) :=
    funext fun k => hrow (ix2 p k) (ix2 r k) rfl rfl rfl
  rw [hx]
  rfl

/-- WHAT POINT `t` WRITES BACK is block `t` of the target: rows `1024·t …` of the row function of the arguments. -/
theorem flushed_eq (c : Dev nD) (t : Fin cfg0.N) :
    (dats m 0 c).flushed 7 t = ((cfg0.win 7).blk t).view.read (Elt Ideal) (target m c) := by
  rw [Value.flushed7]
  unfold out0_7
  rw [View.canon_unit_zero origin2]
  simp only [View.ld_unit_zero (S := S1024x512) origin2, View.ld_unit_zero (S := S512x1024) origin2,
    View.ld_unit_zero (S := S512x10) origin2, View.ld_unit_zero (S := S1024) origin1,
    View.ld_unit_zero (S := S512) origin1, View.ld_unit_zero (S := S10) origin1]
  obtain ⟨a0, a1, b0, b1, -⟩ := index_facts t
  funext y
  refine stored_eq_result (iblk m c 0 t) (iblk m c 1 t) (iblk m c 2 t) (iblk m c 3 t) (iblk m c 4 t) (iblk m c 5 t)
    (iblk m c 6 t) (V m c main_arg0) (V m c main_arg1) (V m c main_arg2) (V m c main_arg3) (V m c main_arg4)
    (V m c main_arg5) (V m c main_arg6) y (((cfg0.win 7).blk t).view.emb y)
    (whole1 m c t) (whole2 m c t) (whole3 m c t) (whole4 m c t) (whole5 m c t) (whole6 m c t) ?_ ?_
  · show win0_7.index t (1 : Fin 2) * 10 + 1 * (y 1).val = (y 1).val
    omega
  · intro z u hz hu0 hu1
    show (V m c main_arg0 : S32768x512.Idx → EReal) (((cfg0.win 0).blk t).view.emb z) = V m c main_arg0 u
    refine congrArg (V m c main_arg0 : S32768x512.Idx → EReal) (funext fun a => Fin.ext ?_)
    have hu0' : (u 0).val = win0_7.index t (0 : Fin 2) * 1024 + 1 * (y 0).val := hu0
    match a with
    | ⟨0, _⟩ => show win0_0.index t (0 : Fin 2) * 1024 + 1 * (z 0).val = (u 0).val; omega
    | ⟨1, _⟩ => show win0_0.index t (1 : Fin 2) * 512 + 1 * (z 1).val = (u 1).val; omega

/-- An index of the result array is in point `t`'s block iff each coordinate is in the block's range on its axis. -/
theorem mem_block (t : Fin cfg0.N) (i : S32768x10.Idx) :
    i ∈ ((cfg0.win 7).blk t).view.set ↔ ∀ a : Fin 2, win0_7.index t a * S1024x10.size a ≤ (i a).val
      ∧ (i a).val < win0_7.index t a * S1024x10.size a + S1024x10.size a := by
  show i ∈ ((View.whole main_v0).slice (win0_7.rect t)).set ↔ _
  rw [View.set_slice_whole, Rect.mem_set_unit]
  exact Iff.rfl

/-- Every index of the result array is in the block of the point its row falls in: row `r` is in block `r / 1024`. -/
theorem covered (i : S32768x10.Idx) :
    ∃ t : Fin cfg0.N, (cfg0.win 7).flush t = true ∧ i ∈ ((cfg0.win 7).blk t).view.set := by
  have hi0 : (i 0).val < 32768 := (i 0).isLt
  have hi1 : (i 1).val < 10 := (i 1).isLt
  have hlt : (i 0).val / 1024 < cfg0.N := by
    show (i 0).val / 1024 < grid0.N
    rw [N_0]
    omega
  obtain ⟨t, ht⟩ : ∃ t : Fin cfg0.N, t.val = (i 0).val / 1024 := ⟨⟨(i 0).val / 1024, hlt⟩, rfl⟩
  obtain ⟨-, -, b0, b1, -⟩ := index_facts t
  refine ⟨t, flush0_7 t, ?_⟩
  rw [mem_block]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 10 ≤ (i 1).val ∧ (i 1).val < win0_7.index t (1 : Fin 2) * 10 + 10
    omega

/-- THE RESULT ARRAY after the run is the row function of the argument arrays. -/
theorem final (c : Dev nD) : (dats m 0 c).arrAt 7 cfg0.N = target m c :=
  (dats m 0 c).arrAt_eq_of_cover 7 (target m c) (fun t _ => flushed_eq m c t) covered

/-- The kernel's run, read: the result array at `RowMlp.result` of the arguments, the arguments unchanged. -/
theorem run : θ_run defs (onTc (τ := τ) (main (F := Ideal))) ⟨m, fun _ => 0, ρ⟩ fun r => ∀ c : Dev nD,
      r.2.mem ((c : Thread nD τ).loc main_v0) = RowMlp.result (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.WholeArray

end
-- ==== Proof.RefRows.lean ====
/-
  The reference program read one row at a time. Its 30 host operations are three affine layers
  (a product with a weight matrix plus a broadcast bias) with a blended activation after the first and
  a rectifier after the second; entry `(r, c)` of each stage depends on row `r` of `x` alone. So each
  stage at `(r, j)` is the row function of `RowMlp` applied to row `r` of `x`, and the result array is
  `RowMlp.result` of the seven arguments.
-/
import proofs.«167243_j88441966559494_1_alg».proof.Proof.Gen.ReferenceIdeal.Read
import proofs.«167243_j88441966559494_1_alg».proof.Proof.RowMlp

noncomputable section

namespace Cert.ReferenceIdeal.Rows

open Cert.ReferenceIdeal Cert.ReferenceIdeal.Read Idealize.ShloMosaic Idealize.ShloMosaic.ValueIdx

variable (x0 : (⟨S32768x512, .f32⟩ : BufTy).Contents (Elt Ideal)) (x1 : (⟨S512x1024, .f32⟩ : BufTy).Contents (Elt Ideal)) (x2 : (⟨S1024, .f32⟩ : BufTy).Contents (Elt Ideal))
  (x3 : (⟨S1024x512, .f32⟩ : BufTy).Contents (Elt Ideal)) (x4 : (⟨S512, .f32⟩ : BufTy).Contents (Elt Ideal)) (x5 : (⟨S512x10, .f32⟩ : BufTy).Contents (Elt Ideal)) (x6 : (⟨S10, .f32⟩ : BufTy).Contents (Elt Ideal))

/-- The first product plus its bias at `(r, j)`: the first affine layer of row `r`. -/
theorem affine1_apply (r : Fin 32768) (j : Fin 1024) :
    val_main_v3 (F := Ideal) x0 x1 x2 (ix2 r j) = RowMlp.affine (fun k => x0 (ix2 r k)) x1 x2 j := by
  rw [val_main_v3_apply, val_main_v0_apply, val_main_v2_apply, val_main_v1_apply]
  have el : ∀ k : Fin 512, lidx_main_v0 (ix2 r j) k = ix2 r k := fun k =>
    funext fun a => by match a with | ⟨0, _⟩ => rfl | ⟨1, _⟩ => rfl
  have er : ∀ k : Fin 512, ridx_main_v0 (ix2 r j) k = ix2 k j := fun k =>
    funext fun a => by match a with | ⟨0, _⟩ => rfl | ⟨1, _⟩ => rfl
  have eb : idx_main_v1 (idx_main_v2 (ix2 r j)) = ix1 j :=
    funext fun a => by match a with | ⟨0, _⟩ => rfl
  simp only [el, er, eb]
  rfl

/-- The select of the two blends at `(r, j)`: the first hidden row of row `r`. -/
theorem hidden1_apply (r : Fin 32768) (j : Fin 1024) :
    val_main_v14 (F := Ideal) x0 x1 x2 (ix2 r j) = RowMlp.hidden1 (fun k => x0 (ix2 r k)) x1 x2 j := by
  rw [val_main_v14_apply, val_main_v6_apply, val_main_v11_apply, val_main_v13_apply, val_main_v8_apply,
    val_main_v10_apply, val_main_v4_apply, val_main_v5_apply, val_main_v7_apply, val_main_v9_apply,
    val_main_v12_apply, val_main_cst_apply, val_main_cst_0_apply, val_main_cst_1_apply, val_main_cst_2_apply,
    affine1_apply]
  rfl

/-- The rectified second layer at `(r, j)`: the second hidden row of row `r`. -/
theorem hidden2_apply (r : Fin 32768) (j : Fin 512) :
    val_main_v19 (F := Ideal) x0 x1 x2 x3 x4 (ix2 r j) = RowMlp.hidden2 (fun k => x0 (ix2 r k)) x1 x2 x3 x4 j := by
  rw [val_main_v19_apply, val_main_v18_apply, val_main_v15_apply, val_main_v17_apply, val_main_v16_apply,
    val_main_call1_v0_apply, val_main_call1_cst_apply]
  have el : ∀ k : Fin 1024, lidx_main_v15 (ix2 r j) k = ix2 r k := fun k =>
    funext fun a => by match a with | ⟨0, _⟩ => rfl | ⟨1, _⟩ => rfl
  have er : ∀ k : Fin 1024, ridx_main_v15 (ix2 r j) k = ix2 k j := fun k =>
    funext fun a => by match a with | ⟨0, _⟩ => rfl | ⟨1, _⟩ => rfl
  have eb : idx_main_v16 (idx_main_v17 (ix2 r j)) = ix1 j :=
    funext fun a => by match a with | ⟨0, _⟩ => rfl
  simp only [el, er, eb, hidden1_apply]
  rfl

/-- The third layer at `(r, c)`: the output row of row `r`. -/
theorem out_apply (r : Fin 32768) (c : Fin 10) :
    val_main_v23 (F := Ideal) x0 x1 x2 x3 x4 x5 x6 (ix2 r c) = RowMlp.out (fun k => x0 (ix2 r k)) x1 x2 x3 x4 x5 x6 c := by
  rw [val_main_v23_apply, val_main_v20_apply, val_main_v22_apply, val_main_v21_apply]
  have el : ∀ k : Fin 512, lidx_main_v20 (ix2 r c) k = ix2 r k := fun k =>
    funext fun a => by match a with | ⟨0, _⟩ => rfl | ⟨1, _⟩ => rfl
  have er : ∀ k : Fin 512, ridx_main_v20 (ix2 r c) k = ix2 k c := fun k =>
    funext fun a => by match a with | ⟨0, _⟩ => rfl | ⟨1, _⟩ => rfl
  have eb : idx_main_v21 (idx_main_v22 (ix2 r c)) = ix1 c :=
    funext fun a => by match a with | ⟨0, _⟩ => rfl
  simp only [el, er, eb, hidden2_apply]
  rfl

/-- The reference's result array is the row function applied to every row of `x`. -/
theorem result_eq :
    val_main_v23 (F := Ideal) x0 x1 x2 x3 x4 x5 x6 = RowMlp.result x0 x1 x2 x3 x4 x5 x6 := by
  funext i
  obtain ⟨r, c, rfl⟩ : ∃ (r : Fin 32768) (c : Fin 10), i = ix2 r c := ⟨i 0, i 1, eq_ix2 i⟩
  exact out_apply x0 x1 x2 x3 x4 x5 x6 r c

end Cert.ReferenceIdeal.Rows

end
-- ==== Proof.lean ====
/-
  The kernel and its reference compute the same three-layer perceptron, and this file assembles the
  proof that they end with equal results over the extended reals.

  The mathematics. Each row of `x` (512 numbers) goes through: an affine layer into 1024 numbers and
  the blended activation (`0.9·z + 0.1·tanh z` where `z > 0`, `0.5·tanh z` elsewhere); an affine
  layer into 512 numbers and the rectifier; an affine layer into 10 numbers. Row `r` of the result
  depends on row `r` of `x` alone (`RowMlp.result`).
  The kernel walks 32 row blocks of 1024 rows; at each it holds the whole weights and computes the
  three layers as block products accumulated from zero, its operands taken to a narrower float format
  first — at the extended reals a change of format is the identity and a block product is the exact
  sum over the contracted position, so the stored block is the row function of the block's rows
  (`BlockRows`), and the 32 blocks tile the result (`WholeArray`).
  The reference applies the same three layers to the whole `[32768, 512]` array with host products,
  which at the extended reals are the same exact sums (`RefRows`).
  No law of arithmetic beyond reading both programs entry by entry is needed: the two sides are the
  same sums of the same products in the same order, so finiteness of the inputs is never used.
-/
import proofs.«167243_j88441966559494_1_alg».proof.Defs
import proofs.«167243_j88441966559494_1_alg».proof.Proof.Gen.Kernel
import proofs.«167243_j88441966559494_1_alg».proof.Proof.Gen.Kernel.Skeleton
import proofs.«167243_j88441966559494_1_alg».proof.Proof.Gen.Kernel.Launch
import proofs.«167243_j88441966559494_1_alg».proof.Proof.Gen.Kernel.Points
import proofs.«167243_j88441966559494_1_alg».proof.Proof.Gen.Kernel.Frame
import proofs.«167243_j88441966559494_1_alg».proof.Proof.Gen.KernelIdeal
import proofs.«167243_j88441966559494_1_alg».proof.Proof.Gen.KernelIdeal.Skeleton
import proofs.«167243_j88441966559494_1_alg».proof.Proof.Gen.KernelIdeal.Launch
import proofs.«167243_j88441966559494_1_alg».proof.Proof.Gen.KernelIdeal.Points
import proofs.«167243_j88441966559494_1_alg».proof.Proof.Gen.KernelIdeal.Frame
import proofs.«167243_j88441966559494_1_alg».proof.Proof.Gen.ReferenceIdeal
import proofs.«167243_j88441966559494_1_alg».proof.Proof.Gen.Pre_finite_inputs
import proofs.«167243_j88441966559494_1_alg».proof.Proof.Gen.KernelIdeal.Value
import proofs.«167243_j88441966559494_1_alg».proof.Proof.Gen.ReferenceIdeal.Run
import proofs.«167243_j88441966559494_1_alg».proof.Proof.Gen.ReferenceIdeal.Read
import proofs.«167243_j88441966559494_1_alg».proof.Proof.WholeArray
import proofs.«167243_j88441966559494_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the row function of the arguments; the arguments agree, so the results do. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v23_eq, Cert.ReferenceIdeal.Rows.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
